-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S256x128 : Shape := ⟨2, ![256, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S256x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S131072x128 .f32) (main_arg1 : FVec F S131072x128 .f32) (main_arg2 : FVec F S256x128 .f32) (main_arg3 : FVec F S128 .f32) (main_arg4 : FVec F S256x128 .f32) (main_arg5 : FVec F S128 .f32) (main_arg6 : FVec F S256x128 .f32) (main_arg7 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S131072x128 : Shape := ⟨2, ![131072, 128]⟩
abbrev S256x128 : Shape := ⟨2, ![256, 128]⟩
abbrev S128 : Shape := ⟨1, ![128]⟩
abbrev S256x256 : Shape := ⟨2, ![256, 256]⟩
abbrev S256 : Shape := ⟨1, ![256]⟩
abbrev S4096x128 : Shape := ⟨2, ![4096, 128]⟩
abbrev S4096x256 : Shape := ⟨2, ![4096, 256]⟩
abbrev S1x256 : Shape := ⟨2, ![1, 256]⟩
abbrev S1x128 : Shape := ⟨2, ![1, 128]⟩

abbrev nBuf : Space → Nat
  | .hbm => 13
  | .vmem => 10
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256x256, .bf16⟩
  | .hbm, ⟨10, _⟩ => ⟨S256, .f32⟩
  | .hbm, ⟨11, _⟩ => ⟨S256x128, .bf16⟩
  | .hbm, ⟨12, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S256x256, .bf16⟩
  | .local _ .vmem, ⟨5, _⟩ => ⟨S256x128, .bf16⟩
  | .local _ .vmem, ⟨6, _⟩ => ⟨S256, .f32⟩
  | .local _ .vmem, ⟨7, _⟩ => ⟨S128, .f32⟩
  | .local _ .vmem, ⟨8, _⟩ => ⟨S4096x128, .f32⟩
  | .local _ .vmem, ⟨9, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S256x128_S256x128_S256x256_d1 : Shape.Concatenates [S256x128, S256x128] S256x256 1
  bitsLt_bf16_f32 : FTy.bits .bf16 < FTy.bits .f32
  concatenates_S128_S128_S256_d0 : Shape.Concatenates [S128, S128] S256 0
  inb_S4096x128_S4096x128_0_0 : ∀ a, (![0, 0] : Fin 2 → Nat) a + S4096x128.size a ≤ S4096x128.size a
  h_S4096x128 : 0 < S4096x128.numel
  concatenates_S4096x128_S4096x128_S4096x256_d1 : Shape.Concatenates [S4096x128, S4096x128] S4096x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4096x256 : S1x256.Broadcasts S4096x256
  slices_S4096x256_o0_0_S4096x128 : S4096x256.Slices ![0, 0] S4096x128
  slices_S4096x256_o0_128_S4096x128 : S4096x256.Slices ![0, 128] S4096x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x128 : Shape := ⟨2, ![131072, 128]⟩
abbrev S256x128 : Shape := ⟨2, ![256, 128]⟩
abbrev S128 : Shape := ⟨1, ![128]⟩
abbrev S131072x256 : Shape := ⟨2, ![131072, 256]⟩
abbrev S1x128 : Shape := ⟨2, ![1, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S131072x256, .f32⟩
  | .hbm, ⟨9, _⟩ => ⟨S131072x128, .f32⟩
  | .hbm, ⟨10, _⟩ => ⟨S1x128, .f32⟩
  | .hbm, ⟨11, _⟩ => ⟨S131072x128, .f32⟩
  | .hbm, ⟨12, _⟩ => ⟨S131072x128, .f32⟩
  | .hbm, ⟨13, _⟩ => ⟨S131072x128, .f32⟩
  | .hbm, ⟨14, _⟩ => ⟨S131072x128, .f32⟩
  | .hbm, ⟨15, _⟩ => ⟨S_, .f32⟩
  | .hbm, ⟨16, _⟩ => ⟨S131072x128, .f32⟩
  | .hbm, ⟨17, _⟩ => ⟨S131072x128, .f32⟩
  | .hbm, ⟨18, _⟩ => ⟨S_, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S1x128, .f32⟩
  | .hbm, ⟨23, _⟩ => ⟨S131072x128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S131072x256, .f32⟩
  | .hbm, ⟨35, _⟩ => ⟨S131072x128, .f32⟩
  | .hbm, ⟨36, _⟩ => ⟨S1x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  dot_S131072x256_S256x128_S131072x128_1_0_0_1_n_n_wf : DotDims.WF S131072x256 S256x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf

class Facts : Prop extends Facts₀ where

variable [Facts]
-- ==== Proof.GruCell.lean ====
/-
  One step of a gated recurrent cell, as a function of one row.

  For a row `x` of the input and the same row `s` of the previous state (128 entries each), with the joined row
  `[s | x]` (256 entries), three weight matrices `W_z, W_r, W_s` (256 × 128) and three bias vectors (128):

      z_j  = σ ( Σ_k [s | x]_k · W_z[k, j] + b_z[j] )                      the update gate
      r_j  = σ ( Σ_k [s | x]_k · W_r[k, j] + b_r[j] )                      the reset gate
      ŝ_j  = tanh ( Σ_k [r ⊙ s | x]_k · W_s[k, j] + b_s[j] )               the candidate state
      s'_j = (1 − z_j) · s_j + z_j · ŝ_j                                   the new state

  on the extended reals, with σ t = 1 / (1 + e^(−t)) and tanh read with their limits at ±∞. Entry (b, j) of the result
  array depends on row b of the two row-indexed arguments only: `cellArray` is `cell` applied row by row, for any number
  of rows — the whole batch and a block of consecutive rows of it are the same function of their own rows.
-/
import Idealize.ShloMosaic.PureOps.Ideal
import Idealize.ShloMosaic.Lib.ValueIdx

noncomputable section

namespace Cert.GruCell

open Idealize.ShloMosaic Idealize.ShloMosaic.ValueIdx

/-- The joined row `[u | v]`: entry `k` is `u_k` for `k < 128` and `v_(k-128)` from there on. -/
def joinRow (u v : Fin 128 → EReal) (k : Fin 256) : EReal :=
  if h : k.val < 128 then u ⟨k.val, h⟩ else v ⟨k.val - 128, by have := k.isLt; omega⟩

/-- `Σ_k row_k · W[k, j] + β_j`: a row times a 256 × 128 matrix, plus a bias. -/
def affine (W : Fin 256 → Fin 128 → EReal) (β : Fin 128 → EReal) (row : Fin 256 → EReal) (j : Fin 128) : EReal :=
  (∑ k : Fin 256, row k * W k j) + β j

/-- The update gate `z_j` of a row. -/
def update (x s : Fin 128 → EReal) (Wz : Fin 256 → Fin 128 → EReal) (bz : Fin 128 → EReal) (j : Fin 128) : EReal :=
  Ideal.logistic (affine Wz bz (joinRow s x) j)

/-- The reset gate `r_j` of a row. -/
def reset (x s : Fin 128 → EReal) (Wr : Fin 256 → Fin 128 → EReal) (br : Fin 128 → EReal) (j : Fin 128) : EReal :=
  Ideal.logistic (affine Wr br (joinRow s x) j)

/-- The candidate state `ŝ_j` of a row: the reset gate scales the previous state entry by entry before the product. -/
def candidate (x s : Fin 128 → EReal) (Wr : Fin 256 → Fin 128 → EReal) (br : Fin 128 → EReal)
    (Ws : Fin 256 → Fin 128 → EReal) (bs : Fin 128 → EReal) (j : Fin 128) : EReal :=
  Ideal.tanh (affine Ws bs (joinRow (fun q => reset x s Wr br q * s q) x) j)

/-- The new state `s'_j = (1 − z_j) · s_j + z_j · ŝ_j` of a row. -/
def cell (x s : Fin 128 → EReal) (Wz : Fin 256 → Fin 128 → EReal) (bz : Fin 128 → EReal)
    (Wr : Fin 256 → Fin 128 → EReal) (br : Fin 128 → EReal) (Ws : Fin 256 → Fin 128 → EReal) (bs : Fin 128 → EReal)
    (j : Fin 128) : EReal :=
  (1 - update x s Wz bz j) * s j + update x s Wz bz j * candidate x s Wr br Ws bs j

/-- Row `b` of an array of rows of 128 entries. -/
def rowOf {n : ℕ} (X : (⟨2, ![n, 128]⟩ : Shape).Idx → EReal) (b : Fin n) : Fin 128 → EReal := fun q => X (ix2 b q)

/-- A 256 × 128 array as a function of its two coordinates. -/
def mat (W : (⟨2, ![256, 128]⟩ : Shape).Idx → EReal) : Fin 256 → Fin 128 → EReal := fun k j => W (ix2 k j)

/-- A 128-vector as a function of its coordinate. -/
def vec (β : (⟨1, ![128]⟩ : Shape).Idx → EReal) : Fin 128 → EReal := fun j => β (ix1 j)

/-- The cell applied to every row of `x` and `s`: entry `(b, j)` is `cell` of row `b` at `j`. Arguments in the order
    `x, s, W_z, b_z, W_r, b_r, W_s, b_s`. -/
def cellArray {n : ℕ} (x s : (⟨2, ![n, 128]⟩ : Shape).Idx → EReal)
    (Wz : (⟨2, ![256, 128]⟩ : Shape).Idx → EReal) (bz : (⟨1, ![128]⟩ : Shape).Idx → EReal)
    (Wr : (⟨2, ![256, 128]⟩ : Shape).Idx → EReal) (br : (⟨1, ![128]⟩ : Shape).Idx → EReal)
    (Ws : (⟨2, ![256, 128]⟩ : Shape).Idx → EReal) (bs : (⟨1, ![128]⟩ : Shape).Idx → EReal) :
    (⟨2, ![n, 128]⟩ : Shape).Idx → EReal := fun i =>
  cell (rowOf x ⟨(i 0).val, idx2_lt0 i⟩) (rowOf s ⟨(i 0).val, idx2_lt0 i⟩) (mat Wz) (vec bz) (mat Wr) (vec br) (mat Ws) (vec bs)
    ⟨(i 1).val, idx2_lt1 i⟩

/-- At the index with coordinates `(b, j)`. -/
theorem cellArray_ix2 {n : ℕ} (x s : (⟨2, ![n, 128]⟩ : Shape).Idx → EReal)
    (Wz : (⟨2, ![256, 128]⟩ : Shape).Idx → EReal) (bz : (⟨1, ![128]⟩ : Shape).Idx → EReal)
    (Wr : (⟨2, ![256, 128]⟩ : Shape).Idx → EReal) (br : (⟨1, ![128]⟩ : Shape).Idx → EReal)
    (Ws : (⟨2, ![256, 128]⟩ : Shape).Idx → EReal) (bs : (⟨1, ![128]⟩ : Shape).Idx → EReal) (b : Fin n) (j : Fin 128) :
    cellArray x s Wz bz Wr br Ws bs (ix2 b j)
      = cell (rowOf x b) (rowOf s b) (mat Wz) (vec bz) (mat Wr) (vec br) (mat Ws) (vec bs) j := rfl

end Cert.GruCell

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.JoinRow.lean ====
/-
  Two arrays of rows joined along their columns, read one row at a time.

  Row `p` of `[u | v]` (two arrays of `n` rows of 128 entries, joined into rows of 256) is the joined row of row `p` of `u`
  and row `p` of `v`. The same for any number of rows `n`: the whole batch, or one block of it.
-/
import proofs.«142312_j20203526160650_2_alg».proof.Proof.GruCell
import proofs.«142312_j20203526160650_2_alg».proof.Proof.LibConcatPair

noncomputable section

namespace Cert.GruCell

open Idealize.ShloMosaic Idealize.ShloMosaic.ValueIdx

/-- Entry `(p, k)` of the joined array is entry `k` of the joined row `[u_p | v_p]`. -/
theorem concat_rows_joinRow {n : ℕ} (u v : (⟨2, ![n, 128]⟩ : Shape).Idx → EReal)
    (h : Shape.Concatenates [(⟨2, ![n, 128]⟩ : Shape), ⟨2, ![n, 128]⟩] ⟨2, ![n, 256]⟩ 1) (p : Fin n) (k : Fin 256) :
    concatenate (⟨2, ![n, 256]⟩ : Shape) 1 [⟨⟨2, ![n, 128]⟩, u⟩, ⟨⟨2, ![n, 128]⟩, v⟩] h (ix2 p k)
      = joinRow (rowOf u p) (rowOf v p) k := by
  unfold joinRow rowOf
  split
  · next hk => exact ConcatPair.cols_left u v h p k ⟨k.val, hk⟩ rfl
  · next hk =>
    exact ConcatPair.cols_right u v h p k ⟨k.val - 128, by have := k.isLt; omega⟩ (by show k.val - 128 + 128 = k.val; omega)

end Cert.GruCell

end
-- ==== Proof.RefCell.lean ====
/-
  The reference computes the cell row by row.

  Read at the index `(b, j)`, each stage of the reference is the matching piece of `Cert.GruCell` for row `b`:
  the two gates are `1 / (1 + e^(−t))` spelt out with the literal one, at `t` the joined row `[s_b | x_b]` times the gate's
  weights plus its bias; the candidate is `tanh` of the joined row `[r_b ⊙ s_b | x_b]` times `W_s` plus `b_s`; and the
  result blends the previous state and the candidate by the update gate. The products with the weights are the sums
  over the 256 joined entries in both texts, so nothing is re-associated: only the spelling of the sigmoid and the
  reading of a joined array one row at a time are used.
-/
import proofs.«142312_j20203526160650_2_alg».proof.Proof.ReadP
import proofs.«142312_j20203526160650_2_alg».proof.Proof.JoinRow
import Idealize.ShloMosaic.Lib.IdealHost

noncomputable section

namespace Cert.ReferenceIdeal.RefCell

open Cert.ReferenceIdeal Cert.ReferenceIdeal.ReadP Cert.GruCell Idealize.ShloMosaic Idealize.ShloMosaic.ValueIdx

/-- `1 / (1 + e^(−t))` with the float literal one in both places is the sigmoid of the extended reals. -/
theorem sigmoid_spelled (t : EReal) :
    FloatOps.hostDivf (F := Ideal) (φ := .f32) (FloatOps.ofBits .f32 0x3F800000#32)
      (FloatOps.addf (FloatOps.ofBits .f32 0x3F800000#32) (FloatOps.hostUnary .exp (FloatOps.hostNegf t)))
      = Ideal.logistic t := by
  rw [Ideal.ofBits_def, Ideal.ofBits_one_f32]; rfl

/-- The left operand of a product at `(b, j)`, `k`-th term: entry `(b, k)` of the joined array. -/
theorem lhs_at (b : Fin 131072) (j : Fin 128) (k : Fin 256) : lidx_main_v1 (ix2 b j) k = ix2 b k :=
  funext fun a => Fin.ext (by match a with | ⟨0, _⟩ => rfl | ⟨1, _⟩ => rfl)

/-- The right operand of a product at `(b, j)`, `k`-th term: entry `(k, j)` of the weights. -/
theorem rhs_at (b : Fin 131072) (j : Fin 128) (k : Fin 256) : ridx_main_v1 (ix2 b j) k = ix2 k j :=
  funext fun a => Fin.ext (by match a with | ⟨0, _⟩ => rfl | ⟨1, _⟩ => rfl)

/-- A bias broadcast over the rows, at `(b, j)`: its entry `j`. -/
theorem bias_at (b : Fin 131072) (j : Fin 128) : idx_main_v2 (idx_main_v3 (ix2 b j)) = ix1 j :=
  funext fun a => Fin.ext (by match a with | ⟨0, _⟩ => rfl)

variable (x0 x1 : (⟨S131072x128, .f32⟩ : BufTy).Contents (Elt Ideal))
  (x2 x4 x6 : (⟨S256x128, .f32⟩ : BufTy).Contents (Elt Ideal)) (x3 x5 x7 : (⟨S128, .f32⟩ : BufTy).Contents (Elt Ideal))

/-- The update gate's argument at `(b, j)`: `[s_b | x_b] · W_z[:, j] + b_z[j]`. -/
theorem update_arg (b : Fin 131072) (j : Fin 128) :
    val_main_v4 (F := Ideal) x0 x1 x2 x3 (ix2 b j) = affine (mat x2) (vec x3) (joinRow (rowOf x1 b) (rowOf x0 b)) j := by
  rw [val_main_v4_apply, val_main_v1_apply, val_main_v3_apply, val_main_v2_apply]
  show (∑ k : Fin 256, _ * _) + _ = (∑ k : Fin 256, _ * _) + _
  refine congrArg₂ (· + ·) (Finset.sum_congr rfl fun k _ => ?_) (congrArg x3 (bias_at b j))
  rw [lhs_at, rhs_at]
  exact congrArg₂ (· * ·) (concat_rows_joinRow x1 x0 _ b k) rfl

/-- The update gate at `(b, j)`. -/
theorem update_at (b : Fin 131072) (j : Fin 128) :
    val_main_v10 (F := Ideal) x0 x1 x2 x3 (ix2 b j) = update (rowOf x0 b) (rowOf x1 b) (mat x2) (vec x3) j := by
  rw [val_main_v10_apply, val_main_v9_apply, val_main_cst_0_apply, val_main_v8_apply, val_main_v7_apply, val_main_cst_apply,
    val_main_v6_apply, val_main_v5_apply, update_arg]
  exact sigmoid_spelled _

/-- The reset gate's argument at `(b, j)`: `[s_b | x_b] · W_r[:, j] + b_r[j]`. -/
theorem reset_arg (b : Fin 131072) (j : Fin 128) :
    val_main_v14 (F := Ideal) x0 x1 x4 x5 (ix2 b j) = affine (mat x4) (vec x5) (joinRow (rowOf x1 b) (rowOf x0 b)) j := by
  rw [val_main_v14_apply, val_main_v11_apply, val_main_v13_apply, val_main_v12_apply]
  show (∑ k : Fin 256, _ * _) + _ = (∑ k : Fin 256, _ * _) + _
  refine congrArg₂ (· + ·) (Finset.sum_congr rfl fun k _ => ?_) (congrArg x5 (bias_at b j))
  rw [show lidx_main_v11 (ix2 b j) k = ix2 b k from lhs_at b j k, show ridx_main_v11 (ix2 b j) k = ix2 k j from rhs_at b j k]
  exact congrArg₂ (· * ·) (concat_rows_joinRow x1 x0 _ b k) rfl

/-- The reset gate at `(b, j)`. -/
theorem reset_at (b : Fin 131072) (j : Fin 128) :
    val_main_v20 (F := Ideal) x0 x1 x4 x5 (ix2 b j) = reset (rowOf x0 b) (rowOf x1 b) (mat x4) (vec x5) j := by
  rw [val_main_v20_apply, val_main_v19_apply, val_main_cst_2_apply, val_main_v18_apply, val_main_v17_apply, val_main_cst_1_apply,
    val_main_v16_apply, val_main_v15_apply, reset_arg]
  exact sigmoid_spelled _

/-- Row `b` of the gated previous state `r ⊙ s`. -/
theorem gated_row (b : Fin 131072) :
    rowOf (val_main_v21 (F := Ideal) x0 x1 x4 x5) b
      = fun q => reset (rowOf x0 b) (rowOf x1 b) (mat x4) (vec x5) q * rowOf x1 b q := by
  funext q
  show val_main_v21 (F := Ideal) x0 x1 x4 x5 (ix2 b q) = _
  rw [val_main_v21_apply, reset_at]
  rfl

/-- The candidate state at `(b, j)`. -/
theorem candidate_at (b : Fin 131072) (j : Fin 128) :
    val_main_v27 (F := Ideal) x0 x1 x4 x5 x6 x7 (ix2 b j)
      = candidate (rowOf x0 b) (rowOf x1 b) (mat x4) (vec x5) (mat x6) (vec x7) j := by
  rw [val_main_v27_apply, val_main_v26_apply, val_main_v23_apply, val_main_v25_apply, val_main_v24_apply]
  show Ideal.tanh ((∑ k : Fin 256, _ * _) + _) = Ideal.tanh ((∑ k : Fin 256, _ * _) + _)
  refine congrArg Ideal.tanh (congrArg₂ (· + ·) (Finset.sum_congr rfl fun k _ => ?_) (congrArg x7 (bias_at b j)))
  rw [show lidx_main_v23 (ix2 b j) k = ix2 b k from lhs_at b j k, show ridx_main_v23 (ix2 b j) k = ix2 k j from rhs_at b j k]
  refine congrArg₂ (· * ·) ((concat_rows_joinRow (val_main_v21 (F := Ideal) x0 x1 x4 x5) x0 _ b k).trans ?_) rfl
  rw [gated_row]

/-- The reference's result at `(b, j)` is the cell of row `b` at `j`. -/
theorem result_at (b : Fin 131072) (j : Fin 128) :
    val_main_v32 (F := Ideal) x0 x1 x2 x3 x4 x5 x6 x7 (ix2 b j)
      = cell (rowOf x0 b) (rowOf x1 b) (mat x2) (vec x3) (mat x4) (vec x5) (mat x6) (vec x7) j := by
  rw [val_main_v32_apply, val_main_v30_apply, val_main_v29_apply, val_main_v28_apply, val_main_cst_3_apply, val_main_v31_apply,
    update_at, candidate_at, Ideal.ofBits_def, Ideal.ofBits_one_f32]
  rfl

/-- The reference's result array is the cell applied to every row. -/
theorem result_eq :
    val_main_v32 (F := Ideal) x0 x1 x2 x3 x4 x5 x6 x7 = cellArray x0 x1 x2 x3 x4 x5 x6 x7 := by
  funext i
  obtain ⟨b, j, rfl⟩ : ∃ (b : Fin 131072) (j : Fin 128), i = ix2 b j := ⟨i 0, i 1, eq_ix2 i⟩
  rw [result_at, cellArray_ix2]

end Cert.ReferenceIdeal.RefCell

end
-- ==== Proof.FusedPair.lean ====
/-
  A fused pair of gates.

  Two 256 × 128 weight matrices laid side by side form one 256 × 256 matrix whose columns `[0, 128)` are the first
  matrix and whose columns `[128, 256)` are the second; two 128-vectors joined end to end form one 256-vector in the
  same way. Multiplying a row by the fused matrix and adding the fused bias computes both gates' arguments at once:
  column `j` is the first gate's, column `128 + j` the second's.
-/
import proofs.«142312_j20203526160650_2_alg».proof.Proof.GruCell
import proofs.«142312_j20203526160650_2_alg».proof.Proof.LibConcatPair

noncomputable section

namespace Cert.GruCell

open Idealize.ShloMosaic Idealize.ShloMosaic.ValueIdx

/-- Columns `[0, 128)` of a 256 × 256 matrix. -/
def leftCols (W : (⟨2, ![256, 256]⟩ : Shape).Idx → EReal) : Fin 256 → Fin 128 → EReal :=
  fun k j => W (ix2 k ⟨j.val, by have := j.isLt; omega⟩)

/-- Columns `[128, 256)` of a 256 × 256 matrix. -/
def rightCols (W : (⟨2, ![256, 256]⟩ : Shape).Idx → EReal) : Fin 256 → Fin 128 → EReal :=
  fun k j => W (ix2 k ⟨128 + j.val, by have := j.isLt; omega⟩)

/-- Entries `[0, 128)` of a 256-vector. -/
def leftHalf (β : (⟨1, ![256]⟩ : Shape).Idx → EReal) : Fin 128 → EReal :=
  fun j => β (ix1 ⟨j.val, by have := j.isLt; omega⟩)

/-- Entries `[128, 256)` of a 256-vector. -/
def rightHalf (β : (⟨1, ![256]⟩ : Shape).Idx → EReal) : Fin 128 → EReal :=
  fun j => β (ix1 ⟨128 + j.val, by have := j.isLt; omega⟩)

variable (A B : (⟨2, ![256, 128]⟩ : Shape).Idx → EReal)
  (hW : Shape.Concatenates [(⟨2, ![256, 128]⟩ : Shape), ⟨2, ![256, 128]⟩] ⟨2, ![256, 256]⟩ 1)
  (a b : (⟨1, ![128]⟩ : Shape).Idx → EReal)
  (hβ : Shape.Concatenates [(⟨1, ![128]⟩ : Shape), ⟨1, ![128]⟩] ⟨1, ![256]⟩ 0)

/-- The left columns of `[A | B]` are `A`. -/
theorem leftCols_concat :
    leftCols (concatenate (⟨2, ![256, 256]⟩ : Shape) 1 [⟨⟨2, ![256, 128]⟩, A⟩, ⟨⟨2, ![256, 128]⟩, B⟩] hW) = mat A :=
  funext fun k => funext fun j => ConcatPair.cols_left A B hW k _ j rfl

/-- The right columns of `[A | B]` are `B`. -/
theorem rightCols_concat :
    rightCols (concatenate (⟨2, ![256, 256]⟩ : Shape) 1 [⟨⟨2, ![256, 128]⟩, A⟩, ⟨⟨2, ![256, 128]⟩, B⟩] hW) = mat B :=
  funext fun k => funext fun j => ConcatPair.cols_right A B hW k _ j (Nat.add_comm _ _)

/-- The left half of the joined vector is `a`. -/
theorem leftHalf_concat :
    leftHalf (concatenate (⟨1, ![256]⟩ : Shape) 0 [⟨⟨1, ![128]⟩, a⟩, ⟨⟨1, ![128]⟩, b⟩] hβ) = vec a :=
  funext fun j => ConcatPair.vec_left a b hβ _ j rfl

/-- The right half of the joined vector is `b`. -/
theorem rightHalf_concat :
    rightHalf (concatenate (⟨1, ![256]⟩ : Shape) 0 [⟨⟨1, ![128]⟩, a⟩, ⟨⟨1, ![128]⟩, b⟩] hβ) = vec b :=
  funext fun j => ConcatPair.vec_right a b hβ _ j (Nat.add_comm _ _)

end Cert.GruCell

end
-- ==== Proof.KernelProducts.lean ====
/-
  The kernel's two matrix products, read at an index.

  Both products of the block body contract the 256 joined entries of a row against a column of the weights and start
  from a zero accumulator, so at `(p, c)` each is the plain sum `Σ_k L[p, k] · R[k, c]` on the extended reals: the
  fused gate product `[4096, 256] × [256, 256]` and the candidate product `[4096, 256] × [256, 128]`.
-/
import proofs.«142312_j20203526160650_2_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-- Operand indices of the product `gates` at an output index and a contraction position. -/
theorem gates_lhs0 (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem gates_lhs1 (i : S4096x256.Idx) (q : dot_S4096x256_S256x256_S4096x256_1_0_0_1_n_n.contr.Idx) : (dot_S4096x256_S256x256_S4096x256_1_0_0_1_n_n.lhsIdx i q 1).val = (q ⟨0, by decide⟩).val :=
  dot_S4096x256_S256x256_S4096x256_1_0_0_1_n_n.lhsIdx_val_of_single rfl i q
theorem gates_rhs0 (i : S4096x256.Idx) (q : dot_S4096x256_S256x256_S4096x256_1_0_0_1_n_n.contr.Idx) : (dot_S4096x256_S256x256_S4096x256_1_0_0_1_n_n.rhsIdx i q 0).val = (q ⟨0, by decide⟩).val :=
  dot_S4096x256_S256x256_S4096x256_1_0_0_1_n_n.rhsIdx_val_of_single rfl i q
theorem gates_rhs1 (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into a zero accumulator, at `(p, c)`: row `p` of the left operand against column `c` of the right one,
    summed over the 256 contracted positions. -/
theorem gates_apply (L : FVec Ideal S4096x256 .bf16) (R : FVec Ideal S256x256 .bf16) (p : Fin 4096) (c : Fin 256) :
    matmul dot_S4096x256_S256x256_S4096x256_1_0_0_1_n_n none L R (constant (F := Ideal) S4096x256 .f32 0x00000000#32) (ix2 p c)
      = ∑ k : Fin 256, L (ix2 p k) * R (ix2 k c) := by
  show FloatOps.matmul dot_S4096x256_S256x256_S4096x256_1_0_0_1_n_n none L R (constant (F := Ideal) S4096x256 .f32 0x00000000#32) (ix2 p c) = _
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p c) ((contrEquiv1 dot_S4096x256_S256x256_S4096x256_1_0_0_1_n_n 256 rfl rfl).symm k) = ix2 p k := funext fun a => Fin.ext (by
    match a with
    | ⟨0, _⟩ => exact gates_lhs0 _ _
    | ⟨1, _⟩ => exact (gates_lhs1 _ _).trans hk)
  have er : dot_S4096x256_S256x256_S4096x256_1_0_0_1_n_n.rhsIdx (ix2 p c) ((contrEquiv1 dot_S4096x256_S256x256_S4096x256_1_0_0_1_n_n 256 rfl rfl).symm k) = ix2 k c := funext fun a => Fin.ext (by
    match a with
    | ⟨0, _⟩ => exact (gates_rhs0 _ _).trans hk
    | ⟨1, _⟩ => exact gates_rhs1 _ _)
  rw [el, er]

/-- Operand indices of the product `cand` at an output index and a contraction position. -/
theorem cand_lhs0 (i : S4096x128.Idx) (q : dot_S4096x256_S256x128_S4096x128_1_0_0_1_n_n.contr.Idx) : (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem cand_lhs1 (i : S4096x128.Idx) (q : dot_S4096x256_S256x128_S4096x128_1_0_0_1_n_n.contr.Idx) : (dot_S4096x256_S256x128_S4096x128_1_0_0_1_n_n.lhsIdx i q 1).val = (q ⟨0, by decide⟩).val :=
  dot_S4096x256_S256x128_S4096x128_1_0_0_1_n_n.lhsIdx_val_of_single rfl i q
theorem cand_rhs0 (i : S4096x128.Idx) (q : dot_S4096x256_S256x128_S4096x128_1_0_0_1_n_n.contr.Idx) : (dot_S4096x256_S256x128_S4096x128_1_0_0_1_n_n.rhsIdx i q 0).val = (q ⟨0, by decide⟩).val :=
  dot_S4096x256_S256x128_S4096x128_1_0_0_1_n_n.rhsIdx_val_of_single rfl i q
theorem cand_rhs1 (i : S4096x128.Idx) (q : dot_S4096x256_S256x128_S4096x128_1_0_0_1_n_n.contr.Idx) : (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The product into a zero accumulator, at `(p, c)`: row `p` of the left operand against column `c` of the right one,
    summed over the 256 contracted positions. -/
theorem cand_apply (L : FVec Ideal S4096x256 .bf16) (R : FVec Ideal S256x128 .bf16) (p : Fin 4096) (c : Fin 128) :
    matmul dot_S4096x256_S256x128_S4096x128_1_0_0_1_n_n none L R (constant (F := Ideal) S4096x128 .f32 0x00000000#32) (ix2 p c)
      = ∑ k : Fin 256, L (ix2 p k) * R (ix2 k c) := by
  show FloatOps.matmul dot_S4096x256_S256x128_S4096x128_1_0_0_1_n_n none L R (constant (F := Ideal) S4096x128 .f32 0x00000000#32) (ix2 p c) = _
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 p c) ((contrEquiv1 dot_S4096x256_S256x128_S4096x128_1_0_0_1_n_n 256 rfl rfl).symm k) = ix2 p k := funext fun a => Fin.ext (by
    match a with
    | ⟨0, _⟩ => exact cand_lhs0 _ _
    | ⟨1, _⟩ => exact (cand_lhs1 _ _).trans hk)
  have er : dot_S4096x256_S256x128_S4096x128_1_0_0_1_n_n.rhsIdx (ix2 p c) ((contrEquiv1 dot_S4096x256_S256x128_S4096x128_1_0_0_1_n_n 256 rfl rfl).symm k) = ix2 k c := funext fun a => Fin.ext (by
    match a with
    | ⟨0, _⟩ => exact (cand_rhs0 _ _).trans hk
    | ⟨1, _⟩ => exact cand_rhs1 _ _)
  rw [el, er]

end Cert.KernelIdeal.Products

end
-- ==== Proof.KernelRow.lean ====
/-
  The kernel's block body computes the cell row by row.

  One grid point loads a block of 4096 rows of `x` and of `s`, the fused gate weights (256 × 256) and bias (256), the
  candidate weights (256 × 128) and bias (128), and stores one value: at `(p, q)` it is the cell of row `p` of the two
  blocks at `q`, with the update gate's weights and bias the LEFT halves of the fused pair and the reset gate's the
  RIGHT halves. The changes of float format inside the body are the identity on the extended reals; the joined rows
  `[s_p | x_p]` and `[r_p ⊙ s_p | x_p]` are read off the two concatenations; the two slices of the fused product pick
  column `q` (update) and column `128 + q` (reset).
-/
import proofs.«142312_j20203526160650_2_alg».proof.Proof.Gen.KernelIdeal.Skeleton
import proofs.«142312_j20203526160650_2_alg».proof.Proof.JoinRow
import proofs.«142312_j20203526160650_2_alg».proof.Proof.FusedPair
import proofs.«142312_j20203526160650_2_alg».proof.Proof.KernelProducts
import Idealize.ShloMosaic.Lib.ValueLayout
import Idealize.ShloMosaic.Lib.Pipeline.Value
import Idealize.ShloMosaic.Lib.IdealHost

noncomputable section

namespace Cert.KernelIdeal.Row

open Cert.KernelIdeal Cert.KernelIdeal.Gen Cert.KernelIdeal.Products Cert.GruCell Idealize.ShloMosaic Idealize.ShloMosaic.ValueIdx

variable (U V : FVec Ideal S4096x128 .f32) (hlt : FTy.bits .bf16 < FTy.bits .f32)
  (hc : Shape.Concatenates [S4096x128, S4096x128] S4096x256 1)

/-- Entry `(p, k)` of two blocks joined along their columns (each through a change of float format, the identity
    here) is entry `k` of the joined row `[u_p | v_p]`. -/
theorem joined_at (p : Fin 4096) (k : Fin 256) :
    concatenate S4096x256 1 [⟨S4096x128, truncf .bf16 U hlt⟩, ⟨S4096x128, truncf .bf16 V hlt⟩] hc (ix2 p k)
      = joinRow (rowOf U p) (rowOf V p) k :=
  concat_rows_joinRow U V hc p k

/-- The fused gates' argument at `(p, c)`: the joined row `[u_p | v_p]` against column `c` of the fused weights, plus
    entry `c` of the fused bias (a 256-vector laid as one row and repeated down the 4096 rows). -/
theorem gates_arg_at (Wf : FVec Ideal S256x256 .bf16) (βf : FVec Ideal S256 .f32)
    (hW : S256x256.ShapeCasts S256x256) (h1 : S256.ShapeCasts S256) (h2 : S256.ShapeCasts S1x256)
    (h3 : S1x256.Broadcasts S4096x256) (p : Fin 4096) (c : Fin 256) :
    addf (matmul dot_S4096x256_S256x256_S4096x256_1_0_0_1_n_n none
        (concatenate S4096x256 1 [⟨S4096x128, truncf .bf16 U hlt⟩, ⟨S4096x128, truncf .bf16 V hlt⟩] hc)
        (shapeCast S256x256 Wf hW) (constant (F := Ideal) S4096x256 .f32 0x00000000#32))
      (broadcastTo S4096x256 (shapeCast S1x256 (shapeCast S256 βf h1) h2) h3) (ix2 p c)
      = (∑ k : Fin 256, joinRow (rowOf U p) (rowOf V p) k * Wf (ix2 k c)) + βf (ix1 c) := by
  rw [addf_apply, gates_apply, broadcastTo_1b_ab_apply, shapeCast_a_1a_apply, shapeCast_self, shapeCast_self]
  refine congrArg₂ (· + ·) (Finset.sum_congr rfl fun k _ => ?_) rfl
  rw [joined_at]

/-- The candidate's argument at `(p, q)`: the joined row `[u_p | v_p]` against column `q` of the candidate weights,
    plus entry `q` of the candidate bias. -/
theorem cand_arg_at (Wc : FVec Ideal S256x128 .bf16) (βc : FVec Ideal S128 .f32)
    (hW : S256x128.ShapeCasts S256x128) (h2 : S128.ShapeCasts S1x128) (h3 : S1x128.Broadcasts S4096x128)
    (p : Fin 4096) (q : Fin 128) :
    addf (matmul dot_S4096x256_S256x128_S4096x128_1_0_0_1_n_n none
        (concatenate S4096x256 1 [⟨S4096x128, truncf .bf16 U hlt⟩, ⟨S4096x128, truncf .bf16 V hlt⟩] hc)
        (shapeCast S256x128 Wc hW) (constant (F := Ideal) S4096x128 .f32 0x00000000#32))
      (broadcastTo S4096x128 (shapeCast S1x128 βc h2) h3) (ix2 p q)
      = (∑ k : Fin 256, joinRow (rowOf U p) (rowOf V p) k * Wc (ix2 k q)) + βc (ix1 q) := by
  rw [addf_apply, cand_apply, broadcastTo_1b_ab_apply, shapeCast_a_1a_apply, shapeCast_self]
  refine congrArg₂ (· + ·) (Finset.sum_congr rfl fun k _ => ?_) rfl
  rw [joined_at]

/-- The update gate at `(p, q)`: the sigmoid of column `q` of the fused argument. -/
theorem left_gate_at (ZR : FVec Ideal S4096x256 .f32) (h : S4096x256.Slices ![0, 0] S4096x128) (p : Fin 4096) (q : Fin 128) :
    logistic (extractStridedSlice S4096x128 ![0, 0] ZR h) (ix2 p q)
      = Ideal.logistic (ZR (ix2 p ⟨q.val, by have := q.isLt; omega⟩)) := by
  show Ideal.logistic (extractStridedSlice S4096x128 ![0, 0] ZR h (ix2 p q)) = _
  rw [slice2_axis1_apply 0 ZR h p q ⟨q.val, by have := q.isLt; omega⟩ (Nat.zero_add _).symm]

/-- The reset gate at `(p, q)`: the sigmoid of column `128 + q` of the fused argument. -/
theorem right_gate_at (ZR : FVec Ideal S4096x256 .f32) (h : S4096x256.Slices ![0, 128] S4096x128) (p : Fin 4096) (q : Fin 128) :
    logistic (extractStridedSlice S4096x128 ![0, 128] ZR h) (ix2 p q)
      = Ideal.logistic (ZR (ix2 p ⟨128 + q.val, by have := q.isLt; omega⟩)) := by
  show Ideal.logistic (extractStridedSlice S4096x128 ![0, 128] ZR h (ix2 p q)) = _
  rw [slice2_axis1_apply 128 ZR h p q ⟨128 + q.val, by have := q.isLt; omega⟩ rfl]

/-- `tanh` of an array, at an index. -/
theorem tanh_at (W : FVec Ideal S4096x128 .f32) (i : S4096x128.Idx) : tanh W i = Ideal.tanh (W i) := rfl

/-- Row `p` of the gated previous state `r ⊙ s` of the block: the reset gate's weights and bias are the right halves
    of the fused pair. -/
theorem gated_row (X S : FVec Ideal S4096x128 .f32) (Wf : FVec Ideal S256x256 .bf16) (βf : FVec Ideal S256 .f32)
    (hlt : FTy.bits .bf16 < FTy.bits .f32) (hc : Shape.Concatenates [S4096x128, S4096x128] S4096x256 1)
    (hW : S256x256.ShapeCasts S256x256) (h1 : S256.ShapeCasts S256) (h2 : S256.ShapeCasts S1x256)
    (h3 : S1x256.Broadcasts S4096x256) (hs : S4096x256.Slices ![0, 128] S4096x128) (p : Fin 4096) :
    rowOf (mulf (logistic (extractStridedSlice S4096x128 ![0, 128]
        (addf (matmul dot_S4096x256_S256x256_S4096x256_1_0_0_1_n_n none
            (concatenate S4096x256 1 [⟨S4096x128, truncf .bf16 S hlt⟩, ⟨S4096x128, truncf .bf16 X hlt⟩] hc)
            (shapeCast S256x256 Wf hW) (constant (F := Ideal) S4096x256 .f32 0x00000000#32))
          (broadcastTo S4096x256 (shapeCast S1x256 (shapeCast S256 βf h1) h2) h3)) hs)) S) p
      = fun q => reset (rowOf X p) (rowOf S p) (rightCols Wf) (rightHalf βf) q * rowOf S p q := by
  funext q
  show mulf _ S (ix2 p q) = _
  rw [mulf_apply, right_gate_at, gates_arg_at]
  rfl

/-- What the block body stores, at `(p, q)`: the cell of row `p` of the `x` and `s` blocks at `q`. -/
theorem payload_at (X S : Vec Ideal S4096x128 .f32) (Wf : Vec Ideal S256x256 .bf16) (βf : Vec Ideal S256 .f32)
    (Wc : Vec Ideal S256x128 .bf16) (βc : Vec Ideal S128 .f32) (p : Fin 4096) (q : Fin 128) :
    k0_pay1 X S Wf βf Wc βc (ix2 p q)
      = cell (rowOf X p) (rowOf S p) (leftCols Wf) (leftHalf βf) (rightCols Wf) (rightHalf βf) (mat Wc) (vec βc) q := by
  unfold k0_pay1
  rw [addf_apply, mulf_apply, mulf_apply, subf_apply, broadcast_apply, left_gate_at, gates_arg_at, tanh_at, cand_arg_at,
    gated_row, Ideal.ofBits_def, Ideal.ofBits_one_f32]
  rfl

/-- The same at any pair of indices — `y` into the block, `i` into the whole arrays — that name the same column and
    rows on which the blocks agree with the whole arrays, when the halves of the fused pair are the separate gates'
    weights and biases: what the body stores at `y` is the cell applied to every row of the whole arrays, at `i`. -/
theorem point_eq (x s : S131072x128.Idx → EReal) (Wz : S256x128.Idx → EReal) (bz : S128.Idx → EReal)
    (Wr : S256x128.Idx → EReal) (br : S128.Idx → EReal) (Ws : S256x128.Idx → EReal) (bs : S128.Idx → EReal)
    (X S : Vec Ideal S4096x128 .f32) (Wf : Vec Ideal S256x256 .bf16) (βf : Vec Ideal S256 .f32)
    (Wc : Vec Ideal S256x128 .bf16) (βc : Vec Ideal S128 .f32) (y : S4096x128.Idx) (i : S131072x128.Idx)
    (hcol : (i 1).val = (y 1).val)
    (hX : ∀ k : Fin 128, X (ix2 ⟨(y 0).val, idx2_lt0 y⟩ k) = x (ix2 ⟨(i 0).val, idx2_lt0 i⟩ k))
    (hS : ∀ k : Fin 128, S (ix2 ⟨(y 0).val, idx2_lt0 y⟩ k) = s (ix2 ⟨(i 0).val, idx2_lt0 i⟩ k))
    (hWz : leftCols Wf = mat Wz) (hbz : leftHalf βf = vec bz) (hWr : rightCols Wf = mat Wr) (hbr : rightHalf βf = vec br)
    (hWs : mat Wc = mat Ws) (hbs : vec βc = vec bs) :
    k0_pay1 X S Wf βf Wc βc y = cellArray x s Wz bz Wr br Ws bs i := by
  obtain ⟨p, q, rfl⟩ : ∃ (p : Fin 4096) (q : Fin 128), y = ix2 p q := ⟨y 0, y 1, eq_ix2 y⟩
  obtain ⟨b, j, rfl⟩ : ∃ (b : Fin 131072) (j : Fin 128), i = ix2 b j := ⟨i 0, i 1, eq_ix2 i⟩
  obtain rfl : j = q := Fin.ext hcol
  have eX : rowOf X p = rowOf x b := funext hX
  have eS : rowOf S p = rowOf s b := funext hS
  rw [payload_at, cellArray_ix2, eX, eS, hWz, hbz, hWr, hbr, hWs, hbs]

end Cert.KernelIdeal.Row

end
-- ==== Proof.KernelArray.lean ====
/-
  From blocks to the whole result array.

  The grid has 32 points; point `t` reads rows `[4096 t, 4096 t + 4096)` of `x` and of `s` and the whole of the four small
  arrays, and writes back the same rows of the result. Before the region the program joins `W_z` and `W_r` side by side
  into the fused 256 × 256 weights and `b_z`, `b_r` end to end into the fused bias (changes of float format are the
  identity on the extended reals), so the halves of what the body loads are the separate gates' weights and biases.
  Because an entry of the cell depends on its own row only, what point `t` writes back is block `t` of ONE array — the
  cell applied to every row of the arguments —, the 32 blocks cover every row (row `r` is in block `r / 4096`), and the
  result array ends holding that array.
-/
import proofs.«142312_j20203526160650_2_alg».proof.Proof.Gen.KernelIdeal.Value
import proofs.«142312_j20203526160650_2_alg».proof.Proof.KernelRow
import Idealize.ShloMosaic.Lib.StableHlo.Run

noncomputable section

namespace Cert.KernelIdeal.Whole

open Cert.KernelIdeal Cert.KernelIdeal.Gen Cert.GruCell Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The cell applied to every row of the argument arrays as launched. -/
abbrev result (c : Dev nD) : S131072x128.Idx → EReal :=
  cellArray (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-! ## The arrays the program prepares before the region -/

/-- The fused gate weights the region finds: `[W_z | W_r]`. -/
theorem fused_weights (c : Dev nD) : (V m c main_v1 : S256x256.Idx → EReal)
    = concatenate S256x256 1 [⟨S256x128, m ((c : Thread nD τ).loc main_arg2)⟩, ⟨S256x128, m ((c : Thread nD τ).loc main_arg4)⟩] concatenates_S256x128_S256x128_S256x256_d1 := by
  dsimp only [Gen.V, Gen.hostOps0]; after_results; rfl

/-- The fused gate bias the region finds: `b_z` then `b_r`. -/
theorem fused_bias (c : Dev nD) : (V m c main_v2 : S256.Idx → EReal)
    = concatenate S256 0 [⟨S128, m ((c : Thread nD τ).loc main_arg3)⟩, ⟨S128, m ((c : Thread nD τ).loc main_arg5)⟩] concatenates_S128_S128_S256_d0 := by
  dsimp only [Gen.V, Gen.hostOps0]; after_results

/-- The candidate weights the region finds: `W_s`. -/
theorem cand_weights (c : Dev nD) : (V m c main_v3 : S256x128.Idx → EReal) = m ((c : Thread nD τ).loc main_arg6) := by
  dsimp only [Gen.V, Gen.hostOps0]; after_results; rfl

/-! ## The index maps, decided over the 32 grid points -/

/-- The row blocks of `x`, `s` and the result move together (block `t` at point `t`); every other block index is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-! ## The blocks a point reads -/

/-- The four small windows have one block, the whole array: what a point loads is the array itself. -/
theorem blk2_whole (c : Dev nD) (t : Fin cfg0.N) : (iblk m c 2 t : S256x256.Idx → EReal) = V m c main_v1 := by
  obtain ⟨_, _, _, _, e20, e21, e30, e31, e4, e5, _, _⟩ := idx_facts t
  funext y
  show V m c main_v1 (((cfg0.win 2).blk t).view.emb y) = V m c main_v1 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem blk3_whole (c : Dev nD) (t : Fin cfg0.N) : (iblk m c 3 t : S256x128.Idx → EReal) = V m c main_v3 := by
  obtain ⟨_, _, _, _, e20, e21, e30, e31, e4, e5, _, _⟩ := idx_facts t
  funext y
  show V m c main_v3 (((cfg0.win 3).blk t).view.emb y) = V m c main_v3 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem blk4_whole (c : Dev nD) (t : Fin cfg0.N) : (iblk m c 4 t : S256.Idx → EReal) = V m c main_v2 := by
  obtain ⟨_, _, _, _, e20, e21, e30, e31, e4, e5, _, _⟩ := idx_facts t
  funext y
  show V m c main_v2 (((cfg0.win 4).blk t).view.emb y) = V m c main_v2 y
  refine congrArg _ (funext fun a => Fin.ext ?_)
  match a with
  | ⟨0, _⟩ => show win0_4.index t (0 : Fin 1) * 256 + 1 * (y 0).val = (y 0).val; omega

theorem blk5_whole (c : Dev nD) (t : Fin cfg0.N) : (iblk m c 5 t : S128.Idx → EReal) = V m c main_arg7 := by
  obtain ⟨_, _, _, _, e20, e21, e30, e31, e4, e5, _, _⟩ := idx_facts t
  funext y
  show V m c main_arg7 (((cfg0.win 5).blk t).view.emb y) = V m c main_arg7 y
  refine congrArg _ (funext fun a => Fin.ext ?_)
  match a with
  | ⟨0, _⟩ => show win0_5.index t (0 : Fin 1) * 128 + 1 * (y 0).val = (y 0).val; omega

/-! ## What a point writes back -/

/-- Point `t` writes back block `t` of the cell applied to every row: the body's one store covers the block, its value
    at `(p, q)` is the cell of row `p` of the loaded blocks, row `p` of block `t` of `x` and `s` is row `4096 t + p` of the
    arrays, and the halves of the fused weights and bias are the separate gates'. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero2]
  simp only [View.ld_unit_zero (S := S4096x128) zero2, View.ld_unit_zero (S := S256x256) zero2,
    View.ld_unit_zero (S := S256x128) zero2, View.ld_unit_zero (S := S256) zero1, View.ld_unit_zero (S := S128) zero1]
  obtain ⟨a0, a1, b0, b1, _, _, _, _, _, _, o0, o1⟩ := idx_facts t
  funext j
  show k0_pay1 (iblk m c 0 t) (iblk m c 1 t) (iblk m c 2 t) (iblk m c 4 t) (iblk m c 3 t) (iblk m c 5 t) j
    = result m c (((cfg0.win 6).blk t).view.emb j)
  refine Row.point_eq (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (iblk m c 0 t) (iblk m c 1 t) (iblk m c 2 t) (iblk m c 4 t) (iblk m c 3 t) (iblk m c 5 t) j
    (((cfg0.win 6).blk t).view.emb j) ?_ ?_ ?_ ?_ ?_ ?_ ?_ ?_ ?_
  · show win0_6.index t (1 : Fin 2) * 128 + 1 * (j 1).val = (j 1).val
    omega
  · intro k
    show V m c main_arg0 (((cfg0.win 0).blk t).view.emb (ix2 ⟨(j 0).val, idx2_lt0 j⟩ k)) = _
    rw [V_main_arg0]
    refine congrArg _ (funext fun a => Fin.ext ?_)
    match a with
    | ⟨0, _⟩ => show win0_0.index t (0 : Fin 2) * 4096 + 1 * (j 0).val = win0_6.index t (0 : Fin 2) * 4096 + 1 * (j 0).val; omega
    | ⟨1, _⟩ => show win0_0.index t (1 : Fin 2) * 128 + 1 * k.val = k.val; omega
  · intro k
    show V m c main_arg1 (((cfg0.win 1).blk t).view.emb (ix2 ⟨(j 0).val, idx2_lt0 j⟩ k)) = _
    rw [V_main_arg1]
    refine congrArg _ (funext fun a => Fin.ext ?_)
    match a with
    | ⟨0, _⟩ => show win0_1.index t (0 : Fin 2) * 4096 + 1 * (j 0).val = win0_6.index t (0 : Fin 2) * 4096 + 1 * (j 0).val; omega
    | ⟨1, _⟩ => show win0_1.index t (1 : Fin 2) * 128 + 1 * k.val = k.val; omega
  · rw [blk2_whole, fused_weights]; exact leftCols_concat _ _ _
  · rw [blk4_whole, fused_bias]; exact leftHalf_concat _ _ _
  · rw [blk2_whole, fused_weights]; exact rightCols_concat _ _ _
  · rw [blk4_whole, fused_bias]; exact rightHalf_concat _ _ _
  · rw [blk3_whole, cand_weights]
  · rw [blk5_whole, V_main_arg7]

/-! ## The blocks cover the array -/

/-- An index is in point `t`'s block iff each coordinate is in the block's range on its axis. -/
theorem mem_blk (t : Fin cfg0.N) (i : S131072x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v4).slice (win0_6.rect t)).set ↔ _
  rw [View.set_slice_whole, Rect.mem_set_unit]
  exact Iff.rfl

/-- Row `r` of the result is in the block of point `r / 4096`, and every point writes its block back. -/
theorem cover (i : S131072x128.Idx) :
    ∃ t : Fin cfg0.N, (cfg0.win 6).flush t = true ∧ i ∈ ((cfg0.win 6).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, by show _ < grid0.N; rw [N_0]; omega⟩, rfl⟩
  obtain ⟨_, _, _, _, _, _, _, _, _, _, o0, o1⟩ := idx_facts t
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-! ## The result array, and the run -/

/-- After the run the result array is the cell applied to every row of the arguments. -/
theorem final (c : Dev nD) : (dats m 0 c).arrAt 6 cfg0.N = result m c :=
  (dats m 0 c).arrAt_eq_of_cover 6 (result m c) (fun t _ => flushed_eq m c t) cover

/-- Every weakly fair execution of the kernel's program terminates with the result array at the cell applied to every row
    of the arguments, and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.lean ====
/-
  A gated recurrent cell: a blocked kernel with fused gates against the plain formula.

  Both programs compute, for every row `b` of the batch (131072 rows of 128 entries),

      z = σ([s_b | x_b] · W_z + b_z),   r = σ([s_b | x_b] · W_r + b_r),
      ŝ = tanh([r ⊙ s_b | x_b] · W_s + b_s),   s'_b = (1 − z) ⊙ s_b + z ⊙ ŝ

  on the extended reals (`Proof/GruCell.lean`). The reference does so on whole arrays, spelling the sigmoid as
  `1 / (1 + e^(−t))` (`Proof/RefCell.lean`). The kernel works on blocks of 4096 rows, computes both gates with ONE
  product against the fused weights `[W_z | W_r]` and bias, cutting the update gate from columns `[0, 128)` and the reset
  gate from columns `[128, 256)`, and changes float formats on the way, which is the identity on the extended reals
  (`Proof/KernelRow.lean`); since an entry of the cell depends on its own row only, the 32 blocks it writes back are the
  blocks of one array, the cell applied to every row (`Proof/KernelArray.lean`). The sums over the 256 joined entries
  are the same sums in both programs, so no law that would need finite inputs is used: the only numerical fact is that the
  float literal `0x3F800000` is 1.

  The three frames are the generated ones (the reference's is its run with the result dropped); the idealization rewrote
  nothing, so `preserves` is trivial.
-/
import proofs.«142312_j20203526160650_2_alg».proof.Defs
import proofs.«142312_j20203526160650_2_alg».proof.Proof.Gen.Kernel
import proofs.«142312_j20203526160650_2_alg».proof.Proof.Gen.Kernel.Skeleton
import proofs.«142312_j20203526160650_2_alg».proof.Proof.Gen.Kernel.Launch
import proofs.«142312_j20203526160650_2_alg».proof.Proof.Gen.Kernel.Points
import proofs.«142312_j20203526160650_2_alg».proof.Proof.Gen.Kernel.Frame
import proofs.«142312_j20203526160650_2_alg».proof.Proof.Gen.KernelIdeal
import proofs.«142312_j20203526160650_2_alg».proof.Proof.Gen.KernelIdeal.Skeleton
import proofs.«142312_j20203526160650_2_alg».proof.Proof.Gen.KernelIdeal.Launch
import proofs.«142312_j20203526160650_2_alg».proof.Proof.Gen.KernelIdeal.Points
import proofs.«142312_j20203526160650_2_alg».proof.Proof.Gen.KernelIdeal.Frame
import proofs.«142312_j20203526160650_2_alg».proof.Proof.Gen.ReferenceIdeal
import proofs.«142312_j20203526160650_2_alg».proof.Proof.Gen.Pre_finite_inputs
import proofs.«142312_j20203526160650_2_alg».proof.Proof.Gen.KernelIdeal.Value
import proofs.«142312_j20203526160650_2_alg».proof.Proof.RunP
import proofs.«142312_j20203526160650_2_alg».proof.Proof.ReadP
import proofs.«142312_j20203526160650_2_alg».proof.Proof.RefCell
import proofs.«142312_j20203526160650_2_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the statement about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From arguments that agree, the kernel's result array and the reference's are both the cell applied to every row. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v32_eq, Cert.ReferenceIdeal.RefCell.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
